-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512x3, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512, .f32⟩
  | .local _ .vmem, ⟨11, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_9 : BitVec 32 := 0#32
  let v18 : BitVec 1 := Scalar.cmpi .ne v17 c0_i32_9
  v18

def k0_cond2 (i : grid0.Coords) : BitVec 1 :=
  let arg1 : BitVec 32 := BitVec.ofNat 32 (i 1).val
  let c0_i32_10 : BitVec 32 := 0#32
  let v19 : BitVec 1 := Scalar.cmpi .ne arg1 c0_i32_10
  let v20 : BitVec 32 := Scalar.extui v19
  let c0_i32_11 : BitVec 32 := 0#32
  let v21 : BitVec 1 := Scalar.cmpi .ne v20 c0_i32_11
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_9 : BitVec 32 := 0#32
  let v18 : BitVec 1 := Scalar.cmpi .ne v17 c0_i32_9
  v18

def k1_cond2 (i : grid1.Coords) : BitVec 1 :=
  let arg1 : BitVec 32 := BitVec.ofNat 32 (i 1).val
  let c0_i32_10 : BitVec 32 := 0#32
  let v19 : BitVec 1 := Scalar.cmpi .ne arg1 c0_i32_10
  let v20 : BitVec 32 := Scalar.extui v19
  let c0_i32_11 : BitVec 32 := 0#32
  let v21 : BitVec 1 := Scalar.cmpi .ne v20 c0_i32_11
  v21

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  reducesTo_S8x4096_S_d0_1 : S8x4096.ReducesTo [0, 1] S_
  h_S_ : 0 < S_.numel
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩
abbrev main_cst_10 : Ref sig .tc := ⟨.hbm, 36, rfl⟩
abbrev main_v23 : Ref sig .tc := ⟨.hbm, 37, rfl⟩
abbrev main_cst_11 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.BitsBody.lean ====
/-
  The kernel body of each of the two pallas calls, run at a first point of a row of tiles and at a later one.
-/
import proofs.«170836_j8899172238075_1_alg».proof.Proof.Gen.Kernel.Launch
import proofs.«170836_j8899172238075_1_alg».proof.Proof.Gen.Kernel.Skeleton
import proofs.«170836_j8899172238075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 0: one tile of the distance matrix per grid point, the row minimum carried along the second grid axis

The grid is 8 × 8, row-major: point t has first coordinate t / 8 (which block of 512 rows of the result) and second
coordinate t % 8 (which block of 512 columns of the distance matrix). At t % 8 = 0 the body stores the tile's row
minima; at every other point it stores the minimum of what the block held and the tile's row minima. The block is
written back after t % 8 = 7. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid -/

/-- The first branch is taken exactly at the points with second coordinate 0. -/
theorem first0 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly at the other points. -/
theorem later0 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores at every point: the output window is never idle. -/
theorem liveAll0 (i : grid0.Coords) : cfg0.idle 2 i = false := by
  show (!(k0_cond1 i == 1#1) && !(k0_cond2 i == 1#1)) = false
  unfold k0_cond1 k0_cond2
  have h : (i 1).val < 8 := (i 1).isLt
  generalize (i 1).val = n at h ⊢
  revert n; decide +kernel
theorem live0 (t : Fin cfg0.N) : cfg0.idle 2 (cfg0.grid.coords t) = false := liveAll0 _

/-! ## The body's accesses and what it leaves in the output block -/

abbrev rI0 : Rect S8x512x3 := Rect.unit (s := S8x512x3) ![0, 0, 0] S8x512x3.size inb_S8x512x3_S8x512x3_0_0_0
abbrev rO0 : Rect S8x512 := Rect.unit (s := S8x512) ![0, 0] S8x512.size inb_S8x512_S8x512_0_0

/-- At a first point: the tile's row minima. -/
def outA0 (x0 x1 : Vec F S8x512x3 .f32) : Vec F S8x512 .f32 :=
  View.canon [⟨rO0, k0_pay1 (View.ld x0 rI0) (View.ld x1 rI0)⟩]
/-- At a later point: the minimum of the block as found and the tile's row minima. -/
def outB0 (x0 x1 : Vec F S8x512x3 .f32) (xo : Vec F S8x512 .f32) : Vec F S8x512 .f32 :=
  View.canon [⟨rO0, k0_pay2 (View.ld x0 rI0) (View.ld x1 rI0) (View.ld xo rO0)⟩]

/-- The one store covers the block. -/
theorem cover0 (p0 : Vec F S8x512 .f32) (y : S8x512.Idx) :
    ∃ pc ∈ ([⟨rO0, p0⟩] : List (View.Piece (Elt F) S8x512 .f32)), y ∈ pc.1.set :=
  View.cover_of_tiled [⟨rO0, p0⟩] S8x512.size (by rfl) y

set_option maxHeartbeats 1000000 in
/-- The body at a first point: the inputs read, the output block (at anything) overwritten with the tile's row minima. -/
theorem runA0 (c : Dev nD) (E : Set ℕ) (i : grid0.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : k0_cond1 i = 1#1) (hc2 : ¬ k0_cond2 i = 1#1)
    (x0 x1 : Vec F S8x512x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outA0 x0 x1)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

set_option maxHeartbeats 1000000 in
/-- The body at a later point: the inputs read, the output block read and overwritten with the running minimum. -/
theorem runB0 (c : Dev nD) (E : Set ℕ) (i : grid0.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : ¬ k0_cond1 i = 1#1) (hc2 : k0_cond2 i = 1#1)
    (x0 x1 : Vec F S8x512x3 .f32) (xo : Vec F S8x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (outB0 x0 x1 xo)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Region0

/-! # Pallas call 1: one tile of the distance matrix per grid point, the row minimum carried along the second grid axis

The grid is 8 × 8, row-major: point t has first coordinate t / 8 (which block of 512 rows of the result) and second
coordinate t % 8 (which block of 512 columns of the distance matrix). At t % 8 = 0 the body stores the tile's row
minima; at every other point it stores the minimum of what the block held and the tile's row minima. The block is
written back after t % 8 = 7. -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid -/

/-- The first branch is taken exactly at the points with second coordinate 0. -/
theorem first1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The second branch is taken exactly at the other points. -/
theorem later1 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)
/-- One of the two branches stores at every point: the output window is never idle. -/
theorem liveAll1 (i : grid1.Coords) : cfg1.idle 2 i = false := by
  show (!(k1_cond1 i == 1#1) && !(k1_cond2 i == 1#1)) = false
  unfold k1_cond1 k1_cond2
  have h : (i 1).val < 8 := (i 1).isLt
  generalize (i 1).val = n at h ⊢
  revert n; decide +kernel
theorem live1 (t : Fin cfg1.N) : cfg1.idle 2 (cfg1.grid.coords t) = false := liveAll1 _

/-! ## The body's accesses and what it leaves in the output block -/

abbrev rI1 : Rect S8x512x3 := Rect.unit (s := S8x512x3) ![0, 0, 0] S8x512x3.size inb_S8x512x3_S8x512x3_0_0_0
abbrev rO1 : Rect S8x512 := Rect.unit (s := S8x512) ![0, 0] S8x512.size inb_S8x512_S8x512_0_0

/-- At a first point: the tile's row minima. -/
def outA1 (x0 x1 : Vec F S8x512x3 .f32) : Vec F S8x512 .f32 :=
  View.canon [⟨rO1, k1_pay1 (View.ld x0 rI1) (View.ld x1 rI1)⟩]
/-- At a later point: the minimum of the block as found and the tile's row minima. -/
def outB1 (x0 x1 : Vec F S8x512x3 .f32) (xo : Vec F S8x512 .f32) : Vec F S8x512 .f32 :=
  View.canon [⟨rO1, k1_pay2 (View.ld x0 rI1) (View.ld x1 rI1) (View.ld xo rO1)⟩]

/-- The one store covers the block. -/
theorem cover1 (p0 : Vec F S8x512 .f32) (y : S8x512.Idx) :
    ∃ pc ∈ ([⟨rO1, p0⟩] : List (View.Piece (Elt F) S8x512 .f32)), y ∈ pc.1.set :=
  View.cover_of_tiled [⟨rO1, p0⟩] S8x512.size (by rfl) y

set_option maxHeartbeats 1000000 in
/-- The body at a first point: the inputs read, the output block (at anything) overwritten with the tile's row minima. -/
theorem runA1 (c : Dev nD) (E : Set ℕ) (i : grid1.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : k1_cond1 i = 1#1) (hc2 : ¬ k1_cond2 i = 1#1)
    (x0 x1 : Vec F S8x512x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outA1 x0 x1)) -∗ K ⟨⟩))
      ⊢ wp frame (wpE (defs₀ (F := F)) Variants.none c none) E (cc1__row_min_kernel i arg2 harg2 arg3 harg3 arg4 harg4) K := by
  simp only [cc1__row_min_kernel_eq_skeleton]; unfold cc1__row_min_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

set_option maxHeartbeats 1000000 in
/-- The body at a later point: the inputs read, the output block read and overwritten with the running minimum. -/
theorem runB1 (c : Dev nD) (E : Set ℕ) (i : grid1.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : ¬ k1_cond1 i = 1#1) (hc2 : k1_cond2 i = 1#1)
    (x0 x1 : Vec F S8x512x3 .f32) (xo : Vec F S8x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (outB1 x0 x1 xo)) -∗ K ⟨⟩))
      ⊢ wp frame (wpE (defs₀ (F := F)) Variants.none c none) E (cc1__row_min_kernel i arg2 harg2 arg3 harg3 arg4 harg4) K := by
  simp only [cc1__row_min_kernel_eq_skeleton]; unfold cc1__row_min_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

end Region1

end Cert.Kernel.Hand

end
-- ==== Proof.BitsData.lean ====
/-
  The proof data of the two pipelines: the running row minimum point by point, and the body obligation.
-/
import proofs.«170836_j8899172238075_1_alg».proof.Proof.BitsBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Pallas call 0: what the output block holds after each point, and the body obligation -/

section Region0
variable (V : (c : Dev nD) → (b : Ref sig .tc) → Buf (Elt F) ((c : Thread nD τ).loc b))

/-- The running minimum. What the output's staging block holds after the body at position n: at the first point of a
    row of tiles the tile's row minima, at a later point the minimum of what the point before left and the tile's. -/
def outsAt0 (c : Dev nD) : (n : ℕ) → n < cfg0.N → Vec F S8x512 .f32
  | 0, hn => outA0 (iblk0 V c 0 ⟨0, hn⟩) (iblk0 V c 1 ⟨0, hn⟩)
  | n + 1, hn =>
    if (n + 1) % 8 = 0 then outA0 (iblk0 V c 0 ⟨n + 1, hn⟩) (iblk0 V c 1 ⟨n + 1, hn⟩)
    else outB0 (iblk0 V c 0 ⟨n + 1, hn⟩) (iblk0 V c 1 ⟨n + 1, hn⟩) (outsAt0 c n (Nat.lt_of_succ_lt hn))

theorem outsAt0_first (c : Dev nD) (t : Fin cfg0.N) (h0 : t.val % 8 = 0) :
    outsAt0 V c t.val t.isLt = outA0 (iblk0 V c 0 t) (iblk0 V c 1 t) := by
  obtain ⟨n, hn⟩ := t
  cases n with
  | zero => exact rfl
  | succ n => exact (if_pos h0).trans rfl

theorem outsAt0_later (c : Dev nD) (t : Fin cfg0.N) (h0 : ¬ t.val % 8 = 0) :
    outsAt0 V c t.val t.isLt = outB0 (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core c: the arrays as the region finds them; after the body at point t each
    input's buffer at its block and the output's at the running minimum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point of a row of tiles the output's staging block holds what the body left at the point before: it
    was not written back between, and the window is never idle. -/
theorem before0_2_later (c : Dev nD) (t : Fin cfg0.N) (h0 : ¬ t.val % 8 = 0) (d) :
    (dat0 V c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (liveAll0) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the inputs' buffers hold their blocks; the point is a first or a later one; at a later one the
    output's buffer holds the running minimum so far. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [outsAt0_first V c t h0]
    iintro ⟨HΦ, Ho, ⟨%d0, H0⟩, ⟨%d1, H1⟩, ⟨%d2, H2⟩⟩
    iapply (runA0 c Set.univ (grid0.coords t) _ _ _ _ _ _ ((first0 t).mpr h0) (fun h => ((later0 t).mp h) h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_later V c t h0]
    simp only [before0_2_later V c t h0]
    iintro ⟨HΦ, Ho, ⟨%d0, H0⟩, ⟨%d1, H1⟩, ⟨%d2, H2⟩⟩
    iapply (runB0 c Set.univ (grid0.coords t) _ _ _ _ _ _ (fun h => h0 ((first0 t).mp h)) ((later0 t).mpr h0) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  rw [live0 t]
  exact sound_body0 V c t

end Region0

/-! # Pallas call 1: what the output block holds after each point, and the body obligation -/

section Region1
variable (V : (c : Dev nD) → (b : Ref sig .tc) → Buf (Elt F) ((c : Thread nD τ).loc b))

/-- The running minimum. What the output's staging block holds after the body at position n: at the first point of a
    row of tiles the tile's row minima, at a later point the minimum of what the point before left and the tile's. -/
def outsAt1 (c : Dev nD) : (n : ℕ) → n < cfg1.N → Vec F S8x512 .f32
  | 0, hn => outA1 (iblk1 V c 0 ⟨0, hn⟩) (iblk1 V c 1 ⟨0, hn⟩)
  | n + 1, hn =>
    if (n + 1) % 8 = 0 then outA1 (iblk1 V c 0 ⟨n + 1, hn⟩) (iblk1 V c 1 ⟨n + 1, hn⟩)
    else outB1 (iblk1 V c 0 ⟨n + 1, hn⟩) (iblk1 V c 1 ⟨n + 1, hn⟩) (outsAt1 c n (Nat.lt_of_succ_lt hn))

theorem outsAt1_first (c : Dev nD) (t : Fin cfg1.N) (h0 : t.val % 8 = 0) :
    outsAt1 V c t.val t.isLt = outA1 (iblk1 V c 0 t) (iblk1 V c 1 t) := by
  obtain ⟨n, hn⟩ := t
  cases n with
  | zero => exact rfl
  | succ n => exact (if_pos h0).trans rfl

theorem outsAt1_later (c : Dev nD) (t : Fin cfg1.N) (h0 : ¬ t.val % 8 = 0) :
    outsAt1 V c t.val t.isLt = outB1 (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core c: the arrays as the region finds them; after the body at point t each
    input's buffer at its block and the output's at the running minimum; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point of a row of tiles the output's staging block holds what the body left at the point before: it
    was not written back between, and the window is never idle. -/
theorem before1_2_later (c : Dev nD) (t : Fin cfg1.N) (h0 : ¬ t.val % 8 = 0) (d) :
    (dat1 V c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (liveAll1) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the point is a first or a later one; at a later one the
    output's buffer holds the running minimum so far. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_first V c t h0]
    iintro ⟨HΦ, Ho, ⟨%d0, H0⟩, ⟨%d1, H1⟩, ⟨%d2, H2⟩⟩
    iapply (runA1 c Set.univ (grid1.coords t) _ _ _ _ _ _ ((first1 t).mpr h0) (fun h => ((later1 t).mp h) h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_later V c t h0]
    simp only [before1_2_later V c t h0]
    iintro ⟨HΦ, Ho, ⟨%d0, H0⟩, ⟨%d1, H1⟩, ⟨%d2, H2⟩⟩
    iapply (runB1 c Set.univ (grid1.coords t) _ _ _ _ _ _ (fun h => h0 ((first1 t).mp h)) ((later1 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  rw [live1 t]
  exact sound_body1 V c t

end Region1

end Cert.Kernel.Hand

end
-- ==== Proof.BitsRun.lean ====
/-
  The whole run: the two pallas calls one after the other, then the host's two means and their sum. The buffers'
  contents at each boundary are a fold from the launch memory: each pallas call replaces its result array by what its
  write-backs leave, the host operations then read those.
-/
import proofs.«170836_j8899172238075_1_alg».proof.Proof.BitsData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first pallas call: its result array at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The pallas calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (W2 m)) ]
theorem main_run (c : Dev nD) : main (F := F) c = Pipeline.Seg.run (segs m) := (main_chain c).trans (by chain_rfl)

set_option backward.isDefEq.respectTransparency.types false in
/-- The run: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_of_not_written (c : Dev nD) (b : Ref sig .tc) (hb : b ∉ ([main_cst, main_v2, main_cst_0, main_v3, main_cst_1, main_v4, main_cst_2, main_v5, main_v6] : List (Ref sig .tc))) :
    W3 m c (Proc.devRef .tc b) = W2 m c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.not_mem_nil, or_false, not_or] at hb
    obtain ⟨h1, h2, h3, h4, h5, h6, h7, h8, h9⟩ := hb
    refine ⟨?_, ?_, ?_, ?_, ?_, ?_, ?_, ?_, ?_⟩ <;> exact StableHlo.devRef_ne_of_ne (by assumption)))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_not_written m c main_arg0 (by decide)
    _ = W1 m c (Proc.devRef .tc main_arg0) := (W2_arr m c 1).trans (((dat1 (V1 m) c).arrAt_in 1 rfl _).trans (A_eq1 (V1 m) c 1))
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_not_written m c main_arg1 (by decide)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 1).trans (((dat0 (V0 m) c).arrAt_in 1 rfl _).trans (A_eq0 (V0 m) c 1))
    _ = m ((c : Thread nD τ).loc main_arg1) := rfl

/-- The frame: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W3_main_arg0 m c),
    (h c _ (mem_uc main_arg1 (by decide))).trans (W3_main_arg1 m c)⟩) (run_all m ρ)

end Cert.Kernel.Hand

end
-- ==== Proof.IdealBody.lean ====
/-
  The kernel body of each of the two pallas calls, run at a first point of a row of tiles and at a later one.
-/
import proofs.«170836_j8899172238075_1_alg».proof.Proof.Gen.KernelIdeal.Launch
import proofs.«170836_j8899172238075_1_alg».proof.Proof.Gen.KernelIdeal.Skeleton
import proofs.«170836_j8899172238075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 0: one tile of the distance matrix per grid point, the row minimum carried along the second grid axis

The grid is 8 × 8, row-major: point t has first coordinate t / 8 (which block of 512 rows of the result) and second
coordinate t % 8 (which block of 512 columns of the distance matrix). At t % 8 = 0 the body stores the tile's row
minima; at every other point it stores the minimum of what the block held and the tile's row minima. The block is
written back after t % 8 = 7. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid -/

/-- The first branch is taken exactly at the points with second coordinate 0. -/
theorem first0 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly at the other points. -/
theorem later0 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores at every point: the output window is never idle. -/
theorem liveAll0 (i : grid0.Coords) : cfg0.idle 2 i = false := by
  show (!(k0_cond1 i == 1#1) && !(k0_cond2 i == 1#1)) = false
  unfold k0_cond1 k0_cond2
  have h : (i 1).val < 8 := (i 1).isLt
  generalize (i 1).val = n at h ⊢
  revert n; decide +kernel
theorem live0 (t : Fin cfg0.N) : cfg0.idle 2 (cfg0.grid.coords t) = false := liveAll0 _

/-! ## The body's accesses and what it leaves in the output block -/

abbrev rI0 : Rect S8x512x3 := Rect.unit (s := S8x512x3) ![0, 0, 0] S8x512x3.size inb_S8x512x3_S8x512x3_0_0_0
abbrev rO0 : Rect S8x512 := Rect.unit (s := S8x512) ![0, 0] S8x512.size inb_S8x512_S8x512_0_0

/-- At a first point: the tile's row minima. -/
def outA0 (x0 x1 : Vec F S8x512x3 .f32) : Vec F S8x512 .f32 :=
  View.canon [⟨rO0, k0_pay1 (View.ld x0 rI0) (View.ld x1 rI0)⟩]
/-- At a later point: the minimum of the block as found and the tile's row minima. -/
def outB0 (x0 x1 : Vec F S8x512x3 .f32) (xo : Vec F S8x512 .f32) : Vec F S8x512 .f32 :=
  View.canon [⟨rO0, k0_pay2 (View.ld x0 rI0) (View.ld x1 rI0) (View.ld xo rO0)⟩]

/-- The one store covers the block. -/
theorem cover0 (p0 : Vec F S8x512 .f32) (y : S8x512.Idx) :
    ∃ pc ∈ ([⟨rO0, p0⟩] : List (View.Piece (Elt F) S8x512 .f32)), y ∈ pc.1.set :=
  View.cover_of_tiled [⟨rO0, p0⟩] S8x512.size (by rfl) y

set_option maxHeartbeats 1000000 in
/-- The body at a first point: the inputs read, the output block (at anything) overwritten with the tile's row minima. -/
theorem runA0 (c : Dev nD) (E : Set ℕ) (i : grid0.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : k0_cond1 i = 1#1) (hc2 : ¬ k0_cond2 i = 1#1)
    (x0 x1 : Vec F S8x512x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outA0 x0 x1)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

set_option maxHeartbeats 1000000 in
/-- The body at a later point: the inputs read, the output block read and overwritten with the running minimum. -/
theorem runB0 (c : Dev nD) (E : Set ℕ) (i : grid0.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : ¬ k0_cond1 i = 1#1) (hc2 : k0_cond2 i = 1#1)
    (x0 x1 : Vec F S8x512x3 .f32) (xo : Vec F S8x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (outB0 x0 x1 xo)) -∗ K ⟨⟩))
      ⊢ wp frame (wpE (defs₀ (F := F)) Variants.none c none) E (cc0__row_min_kernel i arg2 harg2 arg3 harg3 arg4 harg4) K := by
  simp only [cc0__row_min_kernel_eq_skeleton]; unfold cc0__row_min_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Region0

/-! # Pallas call 1: one tile of the distance matrix per grid point, the row minimum carried along the second grid axis

The grid is 8 × 8, row-major: point t has first coordinate t / 8 (which block of 512 rows of the result) and second
coordinate t % 8 (which block of 512 columns of the distance matrix). At t % 8 = 0 the body stores the tile's row
minima; at every other point it stores the minimum of what the block held and the tile's row minima. The block is
written back after t % 8 = 7. -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid -/

/-- The first branch is taken exactly at the points with second coordinate 0. -/
theorem first1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- The second branch is taken exactly at the other points. -/
theorem later1 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)
/-- One of the two branches stores at every point: the output window is never idle. -/
theorem liveAll1 (i : grid1.Coords) : cfg1.idle 2 i = false := by
  show (!(k1_cond1 i == 1#1) && !(k1_cond2 i == 1#1)) = false
  unfold k1_cond1 k1_cond2
  have h : (i 1).val < 8 := (i 1).isLt
  generalize (i 1).val = n at h ⊢
  revert n; decide +kernel
theorem live1 (t : Fin cfg1.N) : cfg1.idle 2 (cfg1.grid.coords t) = false := liveAll1 _

/-! ## The body's accesses and what it leaves in the output block -/

abbrev rI1 : Rect S8x512x3 := Rect.unit (s := S8x512x3) ![0, 0, 0] S8x512x3.size inb_S8x512x3_S8x512x3_0_0_0
abbrev rO1 : Rect S8x512 := Rect.unit (s := S8x512) ![0, 0] S8x512.size inb_S8x512_S8x512_0_0

/-- At a first point: the tile's row minima. -/
def outA1 (x0 x1 : Vec F S8x512x3 .f32) : Vec F S8x512 .f32 :=
  View.canon [⟨rO1, k1_pay1 (View.ld x0 rI1) (View.ld x1 rI1)⟩]
/-- At a later point: the minimum of the block as found and the tile's row minima. -/
def outB1 (x0 x1 : Vec F S8x512x3 .f32) (xo : Vec F S8x512 .f32) : Vec F S8x512 .f32 :=
  View.canon [⟨rO1, k1_pay2 (View.ld x0 rI1) (View.ld x1 rI1) (View.ld xo rO1)⟩]

/-- The one store covers the block. -/
theorem cover1 (p0 : Vec F S8x512 .f32) (y : S8x512.Idx) :
    ∃ pc ∈ ([⟨rO1, p0⟩] : List (View.Piece (Elt F) S8x512 .f32)), y ∈ pc.1.set :=
  View.cover_of_tiled [⟨rO1, p0⟩] S8x512.size (by rfl) y

set_option maxHeartbeats 1000000 in
/-- The body at a first point: the inputs read, the output block (at anything) overwritten with the tile's row minima. -/
theorem runA1 (c : Dev nD) (E : Set ℕ) (i : grid1.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : k1_cond1 i = 1#1) (hc2 : ¬ k1_cond2 i = 1#1)
    (x0 x1 : Vec F S8x512x3 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outA1 x0 x1)) -∗ K ⟨⟩))
      ⊢ wp frame (wpE (defs₀ (F := F)) Variants.none c none) E (cc1__row_min_kernel i arg2 harg2 arg3 harg3 arg4 harg4) K := by
  simp only [cc1__row_min_kernel_eq_skeleton]; unfold cc1__row_min_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

set_option maxHeartbeats 1000000 in
/-- The body at a later point: the inputs read, the output block read and overwritten with the running minimum. -/
theorem runB1 (c : Dev nD) (E : Set ℕ) (i : grid1.Coords) (arg2 : Memref sig .tc .vmem S8x512x3 .f32) (harg2 : arg2.IsWhole)
    (arg3 : Memref sig .tc .vmem S8x512x3 .f32) (harg3 : arg3.IsWhole) (arg4 : Memref sig .tc .vmem S8x512 .f32) (harg4 : arg4.IsWhole)
    (hc1 : ¬ k1_cond1 i = 1#1) (hc2 : k1_cond2 i = 1#1)
    (x0 x1 : Vec F S8x512x3 .f32) (xo : Vec F S8x512 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (outB1 x0 x1 xo)) -∗ K ⟨⟩))
      ⊢ wp frame (wpE (defs₀ (F := F)) Variants.none c none) E (cc1__row_min_kernel i arg2 harg2 arg3 harg3 arg4 harg4) K := by
  simp only [cc1__row_min_kernel_eq_skeleton]; unfold cc1__row_min_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

end Region1

end Cert.KernelIdeal.Hand

end
-- ==== Proof.IdealData.lean ====
/-
  The proof data of the two pipelines: the running row minimum point by point, and the body obligation.
-/
import proofs.«170836_j8899172238075_1_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Pallas call 0: what the output block holds after each point, and the body obligation -/

section Region0
variable (V : (c : Dev nD) → (b : Ref sig .tc) → Buf (Elt F) ((c : Thread nD τ).loc b))

/-- The running minimum. What the output's staging block holds after the body at position n: at the first point of a
    row of tiles the tile's row minima, at a later point the minimum of what the point before left and the tile's. -/
def outsAt0 (c : Dev nD) : (n : ℕ) → n < cfg0.N → Vec F S8x512 .f32
  | 0, hn => outA0 (iblk0 V c 0 ⟨0, hn⟩) (iblk0 V c 1 ⟨0, hn⟩)
  | n + 1, hn =>
    if (n + 1) % 8 = 0 then outA0 (iblk0 V c 0 ⟨n + 1, hn⟩) (iblk0 V c 1 ⟨n + 1, hn⟩)
    else outB0 (iblk0 V c 0 ⟨n + 1, hn⟩) (iblk0 V c 1 ⟨n + 1, hn⟩) (outsAt0 c n (Nat.lt_of_succ_lt hn))

theorem outsAt0_first (c : Dev nD) (t : Fin cfg0.N) (h0 : t.val % 8 = 0) :
    outsAt0 V c t.val t.isLt = outA0 (iblk0 V c 0 t) (iblk0 V c 1 t) := by
  obtain ⟨n, hn⟩ := t
  cases n with
  | zero => exact rfl
  | succ n => exact (if_pos h0).trans rfl

theorem outsAt0_later (c : Dev nD) (t : Fin cfg0.N) (h0 : ¬ t.val % 8 = 0) :
    outsAt0 V c t.val t.isLt = outB0 (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core c: the arrays as the region finds them; after the body at point t each
    input's buffer at its block and the output's at the running minimum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point of a row of tiles the output's staging block holds what the body left at the point before: it
    was not written back between, and the window is never idle. -/
theorem before0_2_later (c : Dev nD) (t : Fin cfg0.N) (h0 : ¬ t.val % 8 = 0) (d) :
    (dat0 V c).before 2 t d = outsAt0 V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (liveAll0) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the inputs' buffers hold their blocks; the point is a first or a later one; at a later one the
    output's buffer holds the running minimum so far. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 8 = 0
  · rw [outsAt0_first V c t h0]
    iintro ⟨HΦ, Ho, ⟨%d0, H0⟩, ⟨%d1, H1⟩, ⟨%d2, H2⟩⟩
    iapply (runA0 c Set.univ (grid0.coords t) _ _ _ _ _ _ ((first0 t).mpr h0) (fun h => ((later0 t).mp h) h0) (iblk0 V c 0 t) (iblk0 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt0_later V c t h0]
    simp only [before0_2_later V c t h0]
    iintro ⟨HΦ, Ho, ⟨%d0, H0⟩, ⟨%d1, H1⟩, ⟨%d2, H2⟩⟩
    iapply (runB0 c Set.univ (grid0.coords t) _ _ _ _ _ _ (fun h => h0 ((first0 t).mp h)) ((later0 t).mpr h0) (iblk0 V c 0 t) (iblk0 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  rw [live0 t]
  exact sound_body0 V c t

end Region0

/-! # Pallas call 1: what the output block holds after each point, and the body obligation -/

section Region1
variable (V : (c : Dev nD) → (b : Ref sig .tc) → Buf (Elt F) ((c : Thread nD τ).loc b))

/-- The running minimum. What the output's staging block holds after the body at position n: at the first point of a
    row of tiles the tile's row minima, at a later point the minimum of what the point before left and the tile's. -/
def outsAt1 (c : Dev nD) : (n : ℕ) → n < cfg1.N → Vec F S8x512 .f32
  | 0, hn => outA1 (iblk1 V c 0 ⟨0, hn⟩) (iblk1 V c 1 ⟨0, hn⟩)
  | n + 1, hn =>
    if (n + 1) % 8 = 0 then outA1 (iblk1 V c 0 ⟨n + 1, hn⟩) (iblk1 V c 1 ⟨n + 1, hn⟩)
    else outB1 (iblk1 V c 0 ⟨n + 1, hn⟩) (iblk1 V c 1 ⟨n + 1, hn⟩) (outsAt1 c n (Nat.lt_of_succ_lt hn))

theorem outsAt1_first (c : Dev nD) (t : Fin cfg1.N) (h0 : t.val % 8 = 0) :
    outsAt1 V c t.val t.isLt = outA1 (iblk1 V c 0 t) (iblk1 V c 1 t) := by
  obtain ⟨n, hn⟩ := t
  cases n with
  | zero => exact rfl
  | succ n => exact (if_pos h0).trans rfl

theorem outsAt1_later (c : Dev nD) (t : Fin cfg1.N) (h0 : ¬ t.val % 8 = 0) :
    outsAt1 V c t.val t.isLt = outB1 (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of the pipeline on core c: the arrays as the region finds them; after the body at point t each
    input's buffer at its block and the output's at the running minimum; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point of a row of tiles the output's staging block holds what the body left at the point before: it
    was not written back between, and the window is never idle. -/
theorem before1_2_later (c : Dev nD) (t : Fin cfg1.N) (h0 : ¬ t.val % 8 = 0) (d) :
    (dat1 V c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (liveAll1) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the point is a first or a later one; at a later one the
    output's buffer holds the running minimum so far. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_first V c t h0]
    iintro ⟨HΦ, Ho, ⟨%d0, H0⟩, ⟨%d1, H1⟩, ⟨%d2, H2⟩⟩
    iapply (runA1 c Set.univ (grid1.coords t) _ _ _ _ _ _ ((first1 t).mpr h0) (fun h => ((later1 t).mp h) h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_later V c t h0]
    simp only [before1_2_later V c t h0]
    iintro ⟨HΦ, Ho, ⟨%d0, H0⟩, ⟨%d1, H1⟩, ⟨%d2, H2⟩⟩
    iapply (runB1 c Set.univ (grid1.coords t) _ _ _ _ _ _ (fun h => h0 ((first1 t).mp h)) ((later1 t).mpr h0) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  rw [live1 t]
  exact sound_body1 V c t

end Region1

end Cert.KernelIdeal.Hand

end
-- ==== Proof.IdealRun.lean ====
/-
  The whole run: the two pallas calls one after the other, then the host's two means and their sum. The buffers'
  contents at each boundary are a fold from the launch memory: each pallas call replaces its result array by what its
  write-backs leave, the host operations then read those.
-/
import proofs.«170836_j8899172238075_1_alg».proof.Proof.IdealData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first pallas call: its result array at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The pallas calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .region (reg1 m),
    .host (hseg hostOps2 hostOps2_sub hostOps2_fresh' (W2 m)) ]
theorem main_run (c : Dev nD) : main (F := F) c = Pipeline.Seg.run (segs m) := (main_chain c).trans (by chain_rfl)

set_option backward.isDefEq.respectTransparency.types false in
/-- The run: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_of_not_written (c : Dev nD) (b : Ref sig .tc) (hb : b ∉ ([main_cst, main_v2, main_cst_0, main_v3, main_cst_1, main_v4, main_cst_2, main_v5, main_v6] : List (Ref sig .tc))) :
    W3 m c (Proc.devRef .tc b) = W2 m c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    simp only [List.mem_cons, List.not_mem_nil, or_false, not_or] at hb
    obtain ⟨h1, h2, h3, h4, h5, h6, h7, h8, h9⟩ := hb
    refine ⟨?_, ?_, ?_, ?_, ?_, ?_, ?_, ?_, ?_⟩ <;> exact StableHlo.devRef_ne_of_ne (by assumption)))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_not_written m c main_arg0 (by decide)
    _ = W1 m c (Proc.devRef .tc main_arg0) := (W2_arr m c 1).trans (((dat1 (V1 m) c).arrAt_in 1 rfl _).trans (A_eq1 (V1 m) c 1))
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_not_written m c main_arg1 (by decide)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 1).trans (((dat0 (V0 m) c).arrAt_in 1 rfl _).trans (A_eq0 (V0 m) c 1))
    _ = m ((c : Thread nD τ).loc main_arg1) := rfl

/-- The frame: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W3_main_arg0 m c),
    (h c _ (mem_uc main_arg1 (by decide))).trans (W3_main_arg1 m c)⟩) (run_all m ρ)

end Cert.KernelIdeal.Hand

end
-- ==== Proof.Spec.lean ====
/-
  The mathematics both programs compute, stated once, away from either program.

  Two clouds of points x, y in three dimensions, eight batches. For a point n of x and a point m of y
  the squared distance is expanded as  |x_n|² + |y_m|² − 2·⟨x_n, y_m⟩ ; the nearest-neighbour distance
  of n is the least of these over m, from +∞. The loss averages the nearest-neighbour distances in both
  directions. Everything is over the extended reals, index by index, for any numbers of points.
-/
import Idealize.ShloMosaic.PureOps.Ideal
import Idealize.ShloMosaic.PureOps.Ideal.Laws
import Idealize.ShloMosaic.Lib.ValueIdx

noncomputable section

namespace Cert.RowMin

open Idealize.ShloMosaic Idealize.ShloMosaic.ValueIdx

/-- A cloud: eight batches of N points with three coordinates. -/
abbrev Cloud (N : Nat) : Type := (⟨3, ![8, N, 3]⟩ : Shape).Idx → EReal

/-- The f32 literal 2.0, kept as its word. -/
abbrev two : EReal := Ideal.ofBits .f32 0x40000000#32

/-- |x_n|²: the sum of the squares of point n's three coordinates. -/
def sq {N : Nat} (x : Cloud N) (b : Fin 8) (n : Fin N) : EReal :=
  ∑ d : Fin 3, x (ix3 b n d) * x (ix3 b n d)

/-- ⟨x_n, y_m⟩. -/
def dot {N M : Nat} (x : Cloud N) (y : Cloud M) (b : Fin 8) (n : Fin N) (m : Fin M) : EReal :=
  ∑ d : Fin 3, x (ix3 b n d) * y (ix3 b m d)

/-- The expanded squared distance (|x_n|² + |y_m|²) − 2·⟨x_n, y_m⟩, in the order both programs add it up. -/
def dist {N M : Nat} (x : Cloud N) (y : Cloud M) (b : Fin 8) (n : Fin N) (m : Fin M) : EReal :=
  (sq x b n + sq y b m) - two * dot x y b n m

/-- The nearest point of y to point n of x: the least distance over m (the empty minimum is +∞). -/
def rowMin {N M : Nat} (x : Cloud N) (y : Cloud M) (b : Fin 8) (n : Fin N) : EReal :=
  Finset.univ.inf fun m : Fin M => dist x y b n m

/-- The nearest point of x to point m of y: the least distance over n. -/
def colMin {N M : Nat} (x : Cloud N) (y : Cloud M) (b : Fin 8) (m : Fin M) : EReal :=
  Finset.univ.inf fun n : Fin N => dist x y b n m

/-- The mean over all 8·4096 entries at once: one sum, one quotient by 32768. -/
def meanAll (f : Fin 8 → Fin 4096 → EReal) : EReal :=
  Ideal.div (∑ b : Fin 8, ∑ n : Fin 4096, f b n) (Ideal.ofBits .f32 0x47000000#32)

/-- The mean of the per-batch means: each row's sum over 4096, then the eight quotients' sum over 8. -/
def meanOfMeans (f : Fin 8 → Fin 4096 → EReal) : EReal :=
  Ideal.div (∑ b : Fin 8, Ideal.div (∑ n : Fin 4096, f b n) (Ideal.ofBits .f32 0x45800000#32))
    (Ideal.ofBits .f32 0x41000000#32)

/-- Swapping the two clouds swaps the roles of the two indices: both sums commute term by term. -/
theorem dist_swap {N M : Nat} (x : Cloud N) (y : Cloud M) (b : Fin 8) (n : Fin N) (m : Fin M) :
    dist y x b m n = dist x y b n m := by
  unfold dist dot
  rw [add_comm (sq y b m) (sq x b n)]
  congr 2
  exact Finset.sum_congr rfl fun d _ => mul_comm _ _

theorem rowMin_swap {N M : Nat} (x : Cloud N) (y : Cloud M) (b : Fin 8) (m : Fin M) :
    rowMin y x b m = colMin x y b m := by
  unfold rowMin colMin
  exact congrArg _ (funext fun n => dist_swap x y b n m)

end Cert.RowMin

end
-- ==== Proof.PayValue.lean ====
/-
  The arithmetic of the kernel's body on one pair of tiles, read at an index.

  The body takes a tile x of 512 points and a tile y of 512 points (eight batches, three coordinates) and computes,
  for each point n of x, the least over the points m of y of  (|x_n|² + |y_m|²) − 2·⟨x_n, y_m⟩ , starting from +∞.
  Each operation is read at one index: the two sums of squares and the contraction as sums over the three
  coordinates, the two keepdims layouts as the row's and the column's value, the final reduction as the infimum over m.
-/
import proofs.«170836_j8899172238075_1_alg».proof.Proof.Gen.KernelIdeal.Skeleton
import proofs.«170836_j8899172238075_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.PayValue

open Idealize.ShloMosaic Idealize.ShloMosaic.ValueIdx Cert.KernelIdeal Cert.KernelIdeal.Gen Cert.RowMin

/-! ## The reduced axis put back: coordinates of the lifted index -/

/-- Point n of batch b with coordinate d inserted on the last axis is the index (b, n, d). -/
theorem lift_x (b : Fin 8) (n : Fin 512) (d : Fin 3) :
    reduces_S8x512x3_S8x512.lift (ix2 b n) d = ix3 b n d :=
  funext fun a => Fin.ext (by match a with | ⟨0, _⟩ => rfl | ⟨1, _⟩ => rfl | ⟨2, _⟩ => rfl)

/-- The pair (b, n) with the second cloud's point m inserted on the last axis is the index (b, n, m). -/
theorem lift_nm (b : Fin 8) (n : Fin 512) (m : Fin 512) :
    reduces_S8x512x512_S8x512.lift (ix2 b n) m = ix3 b n m :=
  funext fun a => Fin.ext (by match a with | ⟨0, _⟩ => rfl | ⟨1, _⟩ => rfl | ⟨2, _⟩ => rfl)

/-! ## The sum of squares of a point's coordinates -/

theorem sumsq_apply (x : Vec Ideal S8x512x3 .f32) (hφ : FKind.Formats .f32)
    (hacc : (0x00000000#32 : BitVec 32) = FKind.add.neutral .f32 hφ) (b : Fin 8) (n : Fin 512) :
    multiReduction (F := Ideal) .add [2] S8x512 (mulf x x) 0x00000000#32 reduces_S8x512x3_S8x512 hφ hacc (ix2 b n)
      = sq x b n := by
  refine (Ideal.multiReduction_add_single (mulf x x) 0x00000000#32 reduces_S8x512x3_S8x512 hφ hacc (ix2 b n)).trans ?_
  show ∑ d : Fin 3, ((x (reduces_S8x512x3_S8x512.lift (ix2 b n) d) * x (reduces_S8x512x3_S8x512.lift (ix2 b n) d) : EReal))
    = ∑ d : Fin 3, x (ix3 b n d) * x (ix3 b n d)
  refine Finset.sum_congr rfl fun d _ => ?_
  rw [lift_x]

/-! ## The two keepdims layouts -/

/-- A per-point value of the first cloud, viewed [8, 512, 1] and repeated along the last axis, reads at (b, n, m)
    the value of point n. -/
theorem keepRow_apply (v : Vec Ideal S8x512 .f32) (b : Fin 8) (n : Fin 512) (m : Fin 512) :
    broadcastTo S8x512x512 (shapeCast S8x512x1 v shapeCasts_S8x512_S8x512x1) broadcasts_S8x512x1_S8x512x512 (ix3 b n m)
      = v (ix2 b n) := by
  refine (broadcastTo_apply _ broadcasts_S8x512x1_S8x512x512 (ix3 b n m) (ix3 b n (0 : Fin 1)) fun a => ?_).trans
    (shapeCast_apply v shapeCasts_S8x512_S8x512x1 (ix3 b n (0 : Fin 1)) (ix2 b n) ?_)
  · match a with
    | ⟨0, _⟩ => show b.val = if (8 : Nat) = 1 then 0 else b.val; rw [if_neg (by decide)]
    | ⟨1, _⟩ => show n.val = if (512 : Nat) = 1 then 0 else n.val; rw [if_neg (by decide)]
    | ⟨2, _⟩ => show 0 = if (1 : Nat) = 1 then 0 else m.val; rw [if_pos rfl]
  · rw [Shape.rowMajor_val_two, Shape.rowMajor_val_three]
    show b.val * 512 + n.val = (b.val * 512 + n.val) * 1 + 0
    omega

/-- A per-point value of the second cloud, viewed [8, 1, 512] and repeated along the middle axis, reads at (b, n, m)
    the value of point m. -/
theorem keepCol_apply (v : Vec Ideal S8x512 .f32) (b : Fin 8) (n : Fin 512) (m : Fin 512) :
    broadcastTo S8x512x512 (shapeCast S8x1x512 v shapeCasts_S8x512_S8x1x512) broadcasts_S8x1x512_S8x512x512 (ix3 b n m)
      = v (ix2 b m) := by
  refine (broadcastTo_apply _ broadcasts_S8x1x512_S8x512x512 (ix3 b n m) (ix3 b (0 : Fin 1) m) fun a => ?_).trans
    (shapeCast_apply v shapeCasts_S8x512_S8x1x512 (ix3 b (0 : Fin 1) m) (ix2 b m) ?_)
  · match a with
    | ⟨0, _⟩ => show b.val = if (8 : Nat) = 1 then 0 else b.val; rw [if_neg (by decide)]
    | ⟨1, _⟩ => show 0 = if (1 : Nat) = 1 then 0 else n.val; rw [if_pos rfl]
    | ⟨2, _⟩ => show m.val = if (512 : Nat) = 1 then 0 else m.val; rw [if_neg (by decide)]
  · rw [Shape.rowMajor_val_two, Shape.rowMajor_val_three]
    show b.val * 512 + m.val = (b.val * 1 + 0) * 512 + m.val
    omega

/-! ## The contraction over the three coordinates -/

section Dot
variable (i : S8x512x512.Idx) (q : dot_S8x512x3_S8x512x3_S8x512x512_2_2_1_1_0_0.contr.Idx)

/-- The left operand's index keeps the batch on axis 0 … -/
theorem lhs_0 : (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
/-- … the first tile's point on axis 1 … -/
theorem lhs_1 : (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide),
    dif_pos (show (1 : Fin S8x512x3.rank) ∈ dot_S8x512x3_S8x512x3_S8x512x512_2_2_1_1_0_0.lhsNonContracting by decide)]
  rfl
/-- … and the contraction position's one coordinate on axis 2. -/
theorem lhs_2 : (dot_S8x512x3_S8x512x3_S8x512x512_2_2_1_1_0_0.lhsIdx i q 2).val = (q ⟨0, by decide⟩).val :=
  dot_S8x512x3_S8x512x3_S8x512x512_2_2_1_1_0_0.lhsIdx_val_of_single rfl i q
/-- The right operand's index keeps the batch on axis 0 … -/
theorem rhs_0 : (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
/-- … the second tile's point on axis 1 … -/
theorem rhs_1 : (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide),
    dif_pos (show (1 : Fin S8x512x3.rank) ∈ dot_S8x512x3_S8x512x3_S8x512x512_2_2_1_1_0_0.rhsNonContracting by decide)]
  rfl
/-- … and the contraction position's one coordinate on axis 2. -/
theorem rhs_2 : (dot_S8x512x3_S8x512x3_S8x512x512_2_2_1_1_0_0.rhsIdx i q 2).val = (q ⟨0, by decide⟩).val :=
  dot_S8x512x3_S8x512x3_S8x512x512_2_2_1_1_0_0.rhsIdx_val_of_single rfl i q

end Dot

/-- The left operand's index at output (b, n, m) and coordinate d: (b, n, d). -/
theorem dot_lhs (b : Fin 8) (n : Fin 512) (m : Fin 512) (d : Fin 3) :
    dot_S8x512x3_S8x512x3_S8x512x512_2_2_1_1_0_0.lhsIdx (ix3 b n m) ((contrEquiv1 dot_S8x512x3_S8x512x3_S8x512x512_2_2_1_1_0_0 3 rfl rfl).symm d) = ix3 b n d := by
  have hk := contrEquiv1_symm_val dot_S8x512x3_S8x512x3_S8x512x512_2_2_1_1_0_0 3 rfl rfl d
  exact funext fun a => Fin.ext (by
    match a with
    | ⟨0, _⟩ => exact lhs_0 _ _
    | ⟨1, _⟩ => exact lhs_1 _ _
    | ⟨2, _⟩ => exact (lhs_2 _ _).trans hk)

/-- The right operand's index at output (b, n, m) and coordinate d: (b, m, d). -/
theorem dot_rhs (b : Fin 8) (n : Fin 512) (m : Fin 512) (d : Fin 3) :
    dot_S8x512x3_S8x512x3_S8x512x512_2_2_1_1_0_0.rhsIdx (ix3 b n m) ((contrEquiv1 dot_S8x512x3_S8x512x3_S8x512x512_2_2_1_1_0_0 3 rfl rfl).symm d) = ix3 b m d := by
  have hk := contrEquiv1_symm_val dot_S8x512x3_S8x512x3_S8x512x512_2_2_1_1_0_0 3 rfl rfl d
  exact funext fun a => Fin.ext (by
    match a with
    | ⟨0, _⟩ => exact rhs_0 _ _
    | ⟨1, _⟩ => exact rhs_1 _ _
    | ⟨2, _⟩ => exact (rhs_2 _ _).trans hk)

/-- The batched product into a zero accumulator reads, at (b, n, m), the inner product of point n of the first tile
    and point m of the second. -/
theorem dot_apply (x y : Vec Ideal S8x512x3 .f32) (b : Fin 8) (n : Fin 512) (m : Fin 512) :
    matmul (F := Ideal) (φ₁ := .f32) (φ₂ := .f32) dot_S8x512x3_S8x512x3_S8x512x512_2_2_1_1_0_0 none x y (constant S8x512x512 .f32 0x00000000#32) (ix3 b n m)
      = dot x y b n m := by
  refine (Ideal.matmul_constant_zero_apply (φ₁ := .f32) (φ₂ := .f32) dot_S8x512x3_S8x512x3_S8x512x512_2_2_1_1_0_0 none x y (ix3 b n m)).trans ?_
  rw [← Equiv.sum_comp (contrEquiv1 dot_S8x512x3_S8x512x3_S8x512x512_2_2_1_1_0_0 3 rfl rfl).symm]
  unfold dot
  refine Finset.sum_congr rfl fun d _ => ?_
  rw [dot_lhs, dot_rhs]

/-! ## The least over the second tile's points -/

/-- The word of +∞. -/
theorem ofBits_inf : Ideal.ofBits .f32 0x7F800000#32 = ⊤ := by
  simp [Ideal.ofBits, Ideal.ieee]

/-- A fold of min from +∞ is the infimum. -/
theorem fold_min_top {ι : Type} (s : Finset ι) (f : ι → EReal) : s.fold min ⊤ f = s.inf f := rfl

/-- The fold of the minimum from the word of +∞ is the infimum. -/
theorem fold_minimumf_eq_inf {ι : Type} (s : Finset ι) (f : ι → EReal) :
    s.fold (FloatOps.minimumf (F := Ideal) (φ := .f32)) (FloatOps.ofBits (F := Ideal) .f32 0x7F800000#32) f = s.inf f := by
  show s.fold min (Ideal.ofBits .f32 0x7F800000#32) f = _
  rw [ofBits_inf, fold_min_top]

/-- The minimum over the last axis from +∞ reads, at (b, n), the infimum over m of the source at (b, n, m). -/
theorem rowInf_apply (src : Vec Ideal S8x512x512 .f32) (hφ : FKind.Formats .f32)
    (hacc : (0x7F800000#32 : BitVec 32) = FKind.minimumf.neutral .f32 hφ) (b : Fin 8) (n : Fin 512) :
    multiReduction (F := Ideal) .minimumf [2] S8x512 src 0x7F800000#32 reduces_S8x512x512_S8x512 hφ hacc (ix2 b n)
      = Finset.univ.inf fun m : Fin 512 => src (ix3 b n m) := by
  have h1 := multiReduction_minimumf_eq_fold (F := Ideal) src 0x7F800000#32 reduces_S8x512x512_S8x512 hφ hacc (ix2 b n)
  have h2 := reduces_S8x512x512_S8x512.fold_filter_drop_single (FloatOps.minimumf (F := Ideal) (φ := .f32))
    (FloatOps.ofBits (F := Ideal) .f32 0x7F800000#32) src (ix2 b n)
  refine h1.trans (h2.trans ((fold_minimumf_eq_inf _ _).trans ?_))
  show (Finset.univ : Finset (Fin 512)).inf (fun m => src (reduces_S8x512x512_S8x512.lift (ix2 b n) m)) = _
  exact congrArg _ (funext fun m => congrArg src (lift_nm b n m))

/-! ## The body's arithmetic at an index -/

/-- The first visit's value at (b, n): the least expanded squared distance from point n of the first tile to the points
    of the second tile. -/
theorem pay1_apply (x y : Vec Ideal S8x512x3 .f32) (b : Fin 8) (n : Fin 512) :
    k0_pay1 (F := Ideal) x y (ix2 b n) = rowMin (N := 512) (M := 512) x y b n := by
  unfold k0_pay1
  refine (rowInf_apply _ _ _ b n).trans ?_
  unfold rowMin
  refine congrArg _ (funext fun m => ?_)
  simp only [subf_apply, addf_apply, mulf_apply, broadcast_apply]
  rw [keepRow_apply, keepCol_apply]
  unfold Cert.RowMin.dist
  exact congrArg₂ (· - ·) (congrArg₂ (· + ·) (sumsq_apply x _ _ b n) (sumsq_apply y _ _ b m))
    (congrArg (two * ·) (dot_apply x y b n m))

/-- A later visit's value at (b, n): the lesser of the carried value and this pair of tiles' least distance. -/
theorem pay2_apply (x y : Vec Ideal S8x512x3 .f32) (xo : Vec Ideal S8x512 .f32) (b : Fin 8) (n : Fin 512) :
    k0_pay2 (F := Ideal) x y xo (ix2 b n) = min (xo (ix2 b n)) (rowMin (N := 512) (M := 512) x y b n) := by
  unfold k0_pay2
  simp only [minimumf_apply]
  rw [shapeCast_self, pay1_apply]

/-- The same two readings for the second call's body, whose text is the first's. -/
theorem pay1_apply' (x y : Vec Ideal S8x512x3 .f32) (b : Fin 8) (n : Fin 512) :
    k1_pay1 (F := Ideal) x y (ix2 b n) = rowMin (N := 512) (M := 512) x y b n := by
  unfold k1_pay1
  refine (rowInf_apply _ _ _ b n).trans ?_
  unfold rowMin
  refine congrArg _ (funext fun m => ?_)
  simp only [subf_apply, addf_apply, mulf_apply, broadcast_apply]
  rw [keepRow_apply, keepCol_apply]
  unfold Cert.RowMin.dist
  exact congrArg₂ (· - ·) (congrArg₂ (· + ·) (sumsq_apply x _ _ b n) (sumsq_apply y _ _ b m))
    (congrArg (two * ·) (dot_apply x y b n m))

theorem pay2_apply' (x y : Vec Ideal S8x512x3 .f32) (xo : Vec Ideal S8x512 .f32) (b : Fin 8) (n : Fin 512) :
    k1_pay2 (F := Ideal) x y xo (ix2 b n) = min (xo (ix2 b n)) (rowMin (N := 512) (M := 512) x y b n) := by
  unfold k1_pay2
  simp only [minimumf_apply]
  rw [shapeCast_self, pay1_apply']

end Cert.KernelIdeal.PayValue

end
-- ==== Proof.LibMinChunks.lean ====
/-
  A minimum taken chunk by chunk. For a family f over Fin N, the least value over the first k + s indices is the
  smaller of the least value over the first k and the least value over the next s; the least value over no index is
  the top element, and over the first N indices it is the least value of the whole family. This is what joins a
  running minimum accumulated one block of columns at a time to the one minimum over all the columns. Any
  linear order with a top element.
-/
import Mathlib.Order.Lattice
import Mathlib.Data.Finset.Lattice.Fold
import Mathlib.Data.Fintype.Basic
import Mathlib.Data.Fin.Basic

namespace Cert.MinChunks

variable {α : Type*} [LinearOrder α] [OrderTop α]

/-- The least value of f over the indices below k. -/
def below {N : Nat} (f : Fin N → α) (k : Nat) : α :=
  (Finset.univ.filter fun m : Fin N => m.val < k).inf f

theorem below_zero {N : Nat} (f : Fin N → α) : below f 0 = ⊤ := by
  unfold below
  rw [Finset.filter_false_of_mem (fun m _ => Nat.not_lt_zero _), Finset.inf_empty]

theorem below_all {N : Nat} (f : Fin N → α) : below f N = Finset.univ.inf f := by
  unfold below
  rw [Finset.filter_true_of_mem (fun m _ => m.isLt)]

/-- The next chunk of s indices joins the running minimum. -/
theorem min_below_chunk {N : Nat} (f : Fin N → α) (k s : Nat) (h : k + s ≤ N) :
    min (below f k) (Finset.univ.inf fun m : Fin s => f ⟨k + m.val, by have := m.isLt; omega⟩) = below f (k + s) := by
  unfold below
  apply le_antisymm
  · refine Finset.le_inf fun m' hm' => ?_
    have hlt : m'.val < k + s := (Finset.mem_filter.mp hm').2
    by_cases hk : m'.val < k
    · exact (min_le_left _ _).trans (Finset.inf_le (Finset.mem_filter.mpr ⟨Finset.mem_univ _, hk⟩))
    · refine (min_le_right _ _).trans ?_
      have hs : m'.val - k < s := by omega
      refine (Finset.inf_le (f := fun m : Fin s => f ⟨k + m.val, by have := m.isLt; omega⟩) (Finset.mem_univ (⟨m'.val - k, hs⟩ : Fin s))).trans_eq ?_
      exact congrArg f (Fin.ext (by show k + (m'.val - k) = m'.val; omega))
  · refine le_min ?_ ?_
    · refine Finset.le_inf fun m' hm' => ?_
      exact Finset.inf_le (Finset.mem_filter.mpr ⟨Finset.mem_univ _, by have := (Finset.mem_filter.mp hm').2; omega⟩)
    · refine Finset.le_inf fun m _ => ?_
      exact Finset.inf_le (Finset.mem_filter.mpr ⟨Finset.mem_univ _, by show k + m.val < k + s; have := m.isLt; omega⟩)

end Cert.MinChunks
-- ==== Proof.IdealValue.lean ====
/-
  What the two pallas calls leave in their result arrays, at the ideal values: every row's nearest-neighbour
  distance. A row of tiles is eight grid points; the running minimum after the q-th of them is the least distance
  to the first 512·(q+1) columns, and after the eighth it is the least distance to all 4096.
-/
import proofs.«170836_j8899172238075_1_alg».proof.Proof.IdealRun
import proofs.«170836_j8899172238075_1_alg».proof.Proof.PayValue
import proofs.«170836_j8899172238075_1_alg».proof.Proof.LibMinChunks
import proofs.«170836_j8899172238075_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.PayValue Cert.RowMin Cert.MinChunks

theorem hz3 : (![0, 0, 0] : Fin 3 → Nat) = fun _ => 0 := funext fun a => by
  match a with | ⟨0, _⟩ => rfl | ⟨1, _⟩ => rfl | ⟨2, _⟩ => rfl
theorem hz2 : (![0, 0] : Fin 2 → Nat) = fun _ => 0 := funext fun a => by
  match a with | ⟨0, _⟩ => rfl | ⟨1, _⟩ => rfl

/-- Point n of the p-th block of 512 consecutive points (p below 8; beyond, it wraps and is never used). -/
def at512 (p : ℕ) (n : Fin 512) : Fin 4096 := ⟨(512 * p + n.val) % 4096, Nat.mod_lt _ (by omega)⟩

/-- The first block of columns: the least value over the block is the least over the first 512 columns. -/
theorem first_chunk (f : Fin 4096 → EReal) (q : ℕ) (hq : q = 0) :
    (Finset.univ.inf fun m : Fin 512 => f (at512 q m)) = below f (512 * (q + 1)) := by
  subst hq
  have h := min_below_chunk f 0 512 (by omega)
  rw [below_zero, min_eq_right le_top] at h
  rw [show 512 * (0 + 1) = 0 + 512 from rfl, ← h]
  exact Finset.inf_congr rfl fun m _ => congrArg f (Fin.ext (by show (512 * 0 + m.val) % 4096 = 0 + m.val; have := m.isLt; omega))

/-- A later block of columns joins the running minimum. -/
theorem next_chunk (f : Fin 4096 → EReal) (q : ℕ) (hq : q < 8) :
    min (below f (512 * q)) (Finset.univ.inf fun m : Fin 512 => f (at512 q m)) = below f (512 * (q + 1)) := by
  have h := min_below_chunk f (512 * q) 512 (by omega)
  rw [show 512 * (q + 1) = 512 * q + 512 from by ring, ← h]
  congr 1
  exact Finset.inf_congr rfl fun m _ => congrArg f (Fin.ext (by show (512 * q + m.val) % 4096 = 512 * q + m.val; have := m.isLt; omega))

/-! # Pallas call 0: its result array is the nearest-neighbour distance of every point of the first operand -/

section Region0
variable (V : (c : Dev nD) → (b : Ref sig .tc) → Buf (Elt Ideal) ((c : Thread nD τ).loc b))

/-- What the body leaves, as the payloads' plain terms. -/
theorem outA0_eq (x0 x1 : Vec Ideal S8x512x3 .f32) : outA0 x0 x1 = k0_pay1 x0 x1 := by
  unfold outA0
  rw [View.canon_unit_zero hz2]
  simp only [View.ld_unit_zero (S := S8x512x3) hz3]
theorem outB0_eq (x0 x1 : Vec Ideal S8x512x3 .f32) (xo : Vec Ideal S8x512 .f32) : outB0 x0 x1 xo = k0_pay2 x0 x1 xo := by
  unfold outB0
  rw [View.canon_unit_zero hz2]
  simp only [View.ld_unit_zero (S := S8x512x3) hz3, View.ld_unit_zero (S := S8x512) hz2]

/-- The index maps over the grid: the first operand's and the result's block move with t / 8, the second operand's with t % 8. -/
theorem idx_facts0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The two operand arrays as the pallas call finds them. -/
abbrev X0 (c : Dev nD) : Cloud 4096 := V c (Pipeline.arrRef spec0 0)
abbrev Y0 (c : Dev nD) : Cloud 4096 := V c (Pipeline.arrRef spec0 1)

/-- A block of 512 points is 512 consecutive points of the array. -/
theorem iblk0_0_apply (c : Dev nD) (t : Fin cfg0.N) (b : Fin 8) (n : Fin 512) (d : Fin 3) :
    iblk0 V c 0 t (ix3 b n d) = X0 V c (ix3 b (at512 (t.val / 8) n) d) := by
  obtain ⟨e0, e1, e2, -, -, -, -, -⟩ := idx_facts0 t
  have ht : t.val < 64 := lt_of_lt_of_eq t.isLt (show cfg0.N = 64 from N_0)
  show V c (Pipeline.arrRef spec0 0) (((cfg0.win 0).blk t).view.emb (ix3 b n d)) = _
  refine congrArg _ ?_
  funext a; apply Fin.ext
  match a with
  | ⟨0, _⟩ => show win0_0.index t (0 : Fin 3) * 8 + 1 * b.val = b.val; omega
  | ⟨1, _⟩ => show win0_0.index t (1 : Fin 3) * 512 + 1 * n.val = (512 * (t.val / 8) + n.val) % 4096; have := n.isLt; omega
  | ⟨2, _⟩ => show win0_0.index t (2 : Fin 3) * 3 + 1 * d.val = d.val; omega
theorem iblk0_1_apply (c : Dev nD) (t : Fin cfg0.N) (b : Fin 8) (n : Fin 512) (d : Fin 3) :
    iblk0 V c 1 t (ix3 b n d) = Y0 V c (ix3 b (at512 (t.val % 8) n) d) := by
  obtain ⟨-, -, -, e0, e1, e2, -, -⟩ := idx_facts0 t
  show V c (Pipeline.arrRef spec0 1) (((cfg0.win 1).blk t).view.emb (ix3 b n d)) = _
  refine congrArg _ ?_
  funext a; apply Fin.ext
  match a with
  | ⟨0, _⟩ => show win0_1.index t (0 : Fin 3) * 8 + 1 * b.val = b.val; omega
  | ⟨1, _⟩ => show win0_1.index t (1 : Fin 3) * 512 + 1 * n.val = (512 * (t.val % 8) + n.val) % 4096; have := n.isLt; omega
  | ⟨2, _⟩ => show win0_1.index t (2 : Fin 3) * 3 + 1 * d.val = d.val; omega

/-- A tile's distances are the array's distances at the tile's rows and columns. -/
theorem tile_dist0 (c : Dev nD) (t : Fin cfg0.N) (b : Fin 8) (n m : Fin 512) :
    dist (N := 512) (M := 512) (iblk0 V c 0 t) (iblk0 V c 1 t) b n m
      = dist (X0 V c) (Y0 V c) b (at512 (t.val / 8) n) (at512 (t.val % 8) m) := by
  unfold Cert.RowMin.dist Cert.RowMin.sq Cert.RowMin.dot
  simp only [iblk0_0_apply, iblk0_1_apply]

/-- The running minimum after point t, at row n of the block: the least distance from the point to the columns seen so far. -/
theorem outsAt0_apply (c : Dev nD) (b : Fin 8) (n : Fin 512) : ∀ (k : ℕ) (hk : k < cfg0.N),
    outsAt0 V c k hk (ix2 b n)
      = below (fun m : Fin 4096 => dist (X0 V c) (Y0 V c) b (at512 (k / 8) n) m) (512 * (k % 8 + 1)) := by
  intro k
  induction k with
  | zero =>
    intro hk
    have h := outsAt0_first V c ⟨0, hk⟩ (Nat.zero_mod _)
    rw [show outsAt0 V c 0 hk = _ from h, outA0_eq, pay1_apply, rowMin]
    simp only [tile_dist0]
    exact first_chunk _ 0 (by omega)
  | succ k ih =>
    intro hk
    have hk64 : k + 1 < 64 := lt_of_lt_of_eq hk (show cfg0.N = 64 from N_0)
    by_cases h0 : (k + 1) % 8 = 0
    · have h := outsAt0_first V c ⟨k + 1, hk⟩ h0
      rw [show outsAt0 V c (k + 1) hk = _ from h, outA0_eq, pay1_apply, rowMin]
      simp only [tile_dist0]
      rw [h0]
      exact first_chunk _ 0 (by omega)
    · have h := outsAt0_later V c ⟨k + 1, hk⟩ h0
      rw [show outsAt0 V c (k + 1) hk = _ from h, outB0_eq, pay2_apply, rowMin]
      simp only [tile_dist0]
      rw [show outsAt0 V c (k + 1 - 1) _ = outsAt0 V c k (Nat.lt_of_succ_lt hk) from rfl, ih (Nat.lt_of_succ_lt hk)]
      have hp : k / 8 = (k + 1) / 8 := by omega
      have hq : (k + 1) % 8 = k % 8 + 1 := by omega
      rw [hp, hq]
      exact next_chunk _ (k % 8 + 1) (by omega)

/-- The whole result array: row r of batch b holds the least distance from point r of the first operand to the
    points of the second. -/
abbrev G0 (c : Dev nD) : S8x4096.Idx → EReal := fun i => rowMin (X0 V c) (Y0 V c) (i 0) (i 1)

/-- What a flushing point writes back is its block of that array. -/
theorem flushed0_eq (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  obtain ⟨-, -, -, -, -, -, e0, e1⟩ := idx_facts0 t
  have ht : t.val < 64 := lt_of_lt_of_eq t.isLt (show cfg0.N = 64 from N_0)
  show (cfg0.win 2).cut (grid0.coords t) ((dat0 V c).after 2 t) = _
  rw [after0_2]
  funext j
  obtain ⟨b, n, rfl⟩ : ∃ (b : Fin 8) (n : Fin 512), j = ix2 b n := ⟨j 0, j 1, eq_ix2 j⟩
  show outsAt0 V c t.val t.isLt (ix2 b n) = G0 V c (((cfg0.win 2).blk t).view.emb (ix2 b n))
  rw [outsAt0_apply V c b n t.val t.isLt, h7, show 512 * (7 + 1) = 4096 from rfl, below_all]
  show rowMin (X0 V c) (Y0 V c) b (at512 (t.val / 8) n) = rowMin (X0 V c) (Y0 V c) _ _
  congr 1
  · apply Fin.ext; show b.val = win0_2.index t (0 : Fin 2) * 8 + 1 * b.val; omega
  · apply Fin.ext; show (512 * (t.val / 8) + n.val) % 4096 = win0_2.index t (1 : Fin 2) * 512 + 1 * n.val; have := n.isLt; omega

theorem mem_blk0 (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Every row lies in the block of the last point of its row of tiles. -/
theorem cover_arr0 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  let t : Fin cfg0.N := ⟨8 * ((i 1).val / 512) + 7, by rw [show cfg0.N = 64 from N_0]; omega⟩
  obtain ⟨-, -, -, -, -, -, e0, e1⟩ := idx_facts0 t
  have tv : t.val = 8 * ((i 1).val / 512) + 7 := rfl
  refine ⟨t, (flush0_2 t).mpr (by omega), ?_⟩
  rw [mem_blk0]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- The result array after the pallas call. -/
theorem final0 (c : Dev nD) : (dat0 V c).arrAt 2 cfg0.N = G0 V c :=
  (dat0 V c).arrAt_eq_of_cover 2 (G0 V c) (fun t hf => flushed0_eq V c t hf) (cover_arr0)

end Region0

/-! # Pallas call 1: its result array is the nearest-neighbour distance of every point of the first operand -/

section Region1
variable (V : (c : Dev nD) → (b : Ref sig .tc) → Buf (Elt Ideal) ((c : Thread nD τ).loc b))

/-- What the body leaves, as the payloads' plain terms. -/
theorem outA1_eq (x0 x1 : Vec Ideal S8x512x3 .f32) : outA1 x0 x1 = k1_pay1 x0 x1 := by
  unfold outA1
  rw [View.canon_unit_zero hz2]
  simp only [View.ld_unit_zero (S := S8x512x3) hz3]
theorem outB1_eq (x0 x1 : Vec Ideal S8x512x3 .f32) (xo : Vec Ideal S8x512 .f32) : outB1 x0 x1 xo = k1_pay2 x0 x1 xo := by
  unfold outB1
  rw [View.canon_unit_zero hz2]
  simp only [View.ld_unit_zero (S := S8x512x3) hz3, View.ld_unit_zero (S := S8x512) hz2]

/-- The index maps over the grid: the first operand's and the result's block move with t / 8, the second operand's with t % 8. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

/-- The two operand arrays as the pallas call finds them. -/
abbrev X1 (c : Dev nD) : Cloud 4096 := V c (Pipeline.arrRef spec1 0)
abbrev Y1 (c : Dev nD) : Cloud 4096 := V c (Pipeline.arrRef spec1 1)

/-- A block of 512 points is 512 consecutive points of the array. -/
theorem iblk1_0_apply (c : Dev nD) (t : Fin cfg1.N) (b : Fin 8) (n : Fin 512) (d : Fin 3) :
    iblk1 V c 0 t (ix3 b n d) = X1 V c (ix3 b (at512 (t.val / 8) n) d) := by
  obtain ⟨e0, e1, e2, -, -, -, -, -⟩ := idx_facts1 t
  have ht : t.val < 64 := lt_of_lt_of_eq t.isLt (show cfg1.N = 64 from N_1)
  show V c (Pipeline.arrRef spec1 0) (((cfg1.win 0).blk t).view.emb (ix3 b n d)) = _
  refine congrArg _ ?_
  funext a; apply Fin.ext
  match a with
  | ⟨0, _⟩ => show win1_0.index t (0 : Fin 3) * 8 + 1 * b.val = b.val; omega
  | ⟨1, _⟩ => show win1_0.index t (1 : Fin 3) * 512 + 1 * n.val = (512 * (t.val / 8) + n.val) % 4096; have := n.isLt; omega
  | ⟨2, _⟩ => show win1_0.index t (2 : Fin 3) * 3 + 1 * d.val = d.val; omega
theorem iblk1_1_apply (c : Dev nD) (t : Fin cfg1.N) (b : Fin 8) (n : Fin 512) (d : Fin 3) :
    iblk1 V c 1 t (ix3 b n d) = Y1 V c (ix3 b (at512 (t.val % 8) n) d) := by
  obtain ⟨-, -, -, e0, e1, e2, -, -⟩ := idx_facts1 t
  show V c (Pipeline.arrRef spec1 1) (((cfg1.win 1).blk t).view.emb (ix3 b n d)) = _
  refine congrArg _ ?_
  funext a; apply Fin.ext
  match a with
  | ⟨0, _⟩ => show win1_1.index t (0 : Fin 3) * 8 + 1 * b.val = b.val; omega
  | ⟨1, _⟩ => show win1_1.index t (1 : Fin 3) * 512 + 1 * n.val = (512 * (t.val % 8) + n.val) % 4096; have := n.isLt; omega
  | ⟨2, _⟩ => show win1_1.index t (2 : Fin 3) * 3 + 1 * d.val = d.val; omega

/-- A tile's distances are the array's distances at the tile's rows and columns. -/
theorem tile_dist1 (c : Dev nD) (t : Fin cfg1.N) (b : Fin 8) (n m : Fin 512) :
    dist (N := 512) (M := 512) (iblk1 V c 0 t) (iblk1 V c 1 t) b n m
      = dist (X1 V c) (Y1 V c) b (at512 (t.val / 8) n) (at512 (t.val % 8) m) := by
  unfold Cert.RowMin.dist Cert.RowMin.sq Cert.RowMin.dot
  simp only [iblk1_0_apply, iblk1_1_apply]

/-- The running minimum after point t, at row n of the block: the least distance from the point to the columns seen so far. -/
theorem outsAt1_apply (c : Dev nD) (b : Fin 8) (n : Fin 512) : ∀ (k : ℕ) (hk : k < cfg1.N),
    outsAt1 V c k hk (ix2 b n)
      = below (fun m : Fin 4096 => dist (X1 V c) (Y1 V c) b (at512 (k / 8) n) m) (512 * (k % 8 + 1)) := by
  intro k
  induction k with
  | zero =>
    intro hk
    have h := outsAt1_first V c ⟨0, hk⟩ (Nat.zero_mod _)
    rw [show outsAt1 V c 0 hk = _ from h, outA1_eq, pay1_apply', rowMin]
    simp only [tile_dist1]
    exact first_chunk _ 0 (by omega)
  | succ k ih =>
    intro hk
    have hk64 : k + 1 < 64 := lt_of_lt_of_eq hk (show cfg1.N = 64 from N_1)
    by_cases h0 : (k + 1) % 8 = 0
    · have h := outsAt1_first V c ⟨k + 1, hk⟩ h0
      rw [show outsAt1 V c (k + 1) hk = _ from h, outA1_eq, pay1_apply', rowMin]
      simp only [tile_dist1]
      rw [h0]
      exact first_chunk _ 0 (by omega)
    · have h := outsAt1_later V c ⟨k + 1, hk⟩ h0
      rw [show outsAt1 V c (k + 1) hk = _ from h, outB1_eq, pay2_apply', rowMin]
      simp only [tile_dist1]
      rw [show outsAt1 V c (k + 1 - 1) _ = outsAt1 V c k (Nat.lt_of_succ_lt hk) from rfl, ih (Nat.lt_of_succ_lt hk)]
      have hp : k / 8 = (k + 1) / 8 := by omega
      have hq : (k + 1) % 8 = k % 8 + 1 := by omega
      rw [hp, hq]
      exact next_chunk _ (k % 8 + 1) (by omega)

/-- The whole result array: row r of batch b holds the least distance from point r of the first operand to the
    points of the second. -/
abbrev G1 (c : Dev nD) : S8x4096.Idx → EReal := fun i => rowMin (X1 V c) (Y1 V c) (i 0) (i 1)

/-- What a flushing point writes back is its block of that array. -/
theorem flushed1_eq (c : Dev nD) (t : Fin cfg1.N) (hf : (cfg1.win 2).flush t = true) :
    (dat1 V c).flushed 2 t = ((cfg1.win 2).blk t).view.read (Elt Ideal) (G1 V c) := by
  have h7 : t.val % 8 = 7 := (flush1_2 t).mp hf
  obtain ⟨-, -, -, -, -, -, e0, e1⟩ := idx_facts1 t
  have ht : t.val < 64 := lt_of_lt_of_eq t.isLt (show cfg1.N = 64 from N_1)
  show (cfg1.win 2).cut (grid1.coords t) ((dat1 V c).after 2 t) = _
  rw [after1_2]
  funext j
  obtain ⟨b, n, rfl⟩ : ∃ (b : Fin 8) (n : Fin 512), j = ix2 b n := ⟨j 0, j 1, eq_ix2 j⟩
  show outsAt1 V c t.val t.isLt (ix2 b n) = G1 V c (((cfg1.win 2).blk t).view.emb (ix2 b n))
  rw [outsAt1_apply V c b n t.val t.isLt, h7, show 512 * (7 + 1) = 4096 from rfl, below_all]
  show rowMin (X1 V c) (Y1 V c) b (at512 (t.val / 8) n) = rowMin (X1 V c) (Y1 V c) _ _
  congr 1
  · apply Fin.ext; show b.val = win1_2.index t (0 : Fin 2) * 8 + 1 * b.val; omega
  · apply Fin.ext; show (512 * (t.val / 8) + n.val) % 4096 = win1_2.index t (1 : Fin 2) * 512 + 1 * n.val; have := n.isLt; omega

theorem mem_blk1 (t : Fin cfg1.N) (i : S8x4096.Idx) :
    i ∈ ((cfg1.win 2).blk t).view.set ↔ ∀ a : Fin 2, win1_2.index t a * S8x512.size a ≤ (i a).val ∧ (i a).val < win1_2.index t a * S8x512.size a + S8x512.size a := by
  show i ∈ ((View.whole main_v1).slice (win1_2.rect t)).set ↔ _
  rw [View.set_slice_whole, Rect.mem_set_unit]
  exact Iff.rfl

/-- Every row lies in the block of the last point of its row of tiles. -/
theorem cover_arr1 (i : S8x4096.Idx) : ∃ t : Fin cfg1.N, (cfg1.win 2).flush t = true ∧ i ∈ ((cfg1.win 2).blk t).view.set := by
  have hi0 : (i 0).val < 8 := (i 0).isLt
  have hi1 : (i 1).val < 4096 := (i 1).isLt
  let t : Fin cfg1.N := ⟨8 * ((i 1).val / 512) + 7, by rw [show cfg1.N = 64 from N_1]; omega⟩
  obtain ⟨-, -, -, -, -, -, e0, e1⟩ := idx_facts1 t
  have tv : t.val = 8 * ((i 1).val / 512) + 7 := rfl
  refine ⟨t, (flush1_2 t).mpr (by omega), ?_⟩
  rw [mem_blk1]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 512 ≤ (i 1).val ∧ (i 1).val < win1_2.index t (1 : Fin 2) * 512 + 512; omega

/-- The result array after the pallas call. -/
theorem final1 (c : Dev nD) : (dat1 V c).arrAt 2 cfg1.N = G1 V c :=
  (dat1 V c).arrAt_eq_of_cover 2 (G1 V c) (fun t hf => flushed1_eq V c t hf) (cover_arr1)

end Region1

end Cert.KernelIdeal.HandValue

end
-- ==== Proof.MeanLaw.lean ====
/-
  The two ways of averaging agree on the extended reals, with no finiteness: dividing by a positive real is
  multiplying by its reciprocal, and a product with a nonnegative real distributes over any sum of extended reals.
  So the mean of eight per-batch means over 4096 is the one mean over 32768.
-/
import proofs.«170836_j8899172238075_1_alg».proof.Proof.Spec
import Mathlib.Data.EReal.Operations

noncomputable section

namespace Cert.RowMin

open Idealize.ShloMosaic

theorem ofBits_4096 : Ideal.ofBits .f32 0x45800000#32 = ((4096 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_32768 : Ideal.ofBits .f32 0x47000000#32 = ((32768 : ℝ) : EReal) := by
  simp [Ideal.ofBits, Ideal.ieee, -EReal.coe_mul]; norm_num

/-- A nonnegative real factor moves across a finite sum of extended reals. -/
theorem sum_mul_coe {ι : Type} (s : Finset ι) (g : ι → EReal) (r : ℝ) (hr : 0 ≤ r) :
    (∑ i ∈ s, g i) * (r : EReal) = ∑ i ∈ s, g i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The mean of the per-batch means is the mean of all the entries. -/
theorem meanOfMeans_eq_meanAll (f : Fin 8 → Fin 4096 → EReal) : meanOfMeans f = meanAll f := by
  unfold meanOfMeans meanAll
  rw [ofBits_4096, ofBits_8, ofBits_32768]
  simp only [Ideal.div_coe (show (4096 : ℝ) ≠ 0 by norm_num), Ideal.div_coe (show (8 : ℝ) ≠ 0 by norm_num),
    Ideal.div_coe (show (32768 : ℝ) ≠ 0 by norm_num)]
  rw [← sum_mul_coe Finset.univ (fun b => ∑ n : Fin 4096, f b n) (1 / 4096) (by norm_num), mul_assoc, ← EReal.coe_mul]
  norm_num

end Cert.RowMin

end
-- ==== Proof.IdealResult.lean ====
/-
  The kernel's result: the two result arrays summed and divided by their 32768 entries, then added — the mean
  nearest-neighbour distance from pred to gt plus the mean from gt to pred.
-/
import proofs.«170836_j8899172238075_1_alg».proof.Proof.IdealValue
import proofs.«170836_j8899172238075_1_alg».proof.Proof.MeanLaw
import Idealize.ShloMosaic.Lib.StableHlo.Run
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.RowMin

variable (m : (ℓ : Loc nD τ sig) → Buf (Elt Ideal) ℓ)

/-- The second pallas call finds both argument arrays as launched: the first call wrote neither. -/
theorem X1_eq (c : Dev nD) : X1 (V1 m) c = m ((c : Thread nD τ).loc main_arg1) :=
  (W1_arr m c 1).trans (((dat0 (V0 m) c).arrAt_in 1 rfl _).trans (A_eq0 (V0 m) c 1))
theorem Y1_eq (c : Dev nD) : Y1 (V1 m) c = m ((c : Thread nD τ).loc main_arg0) :=
  (W1_arr m c 0).trans (((dat0 (V0 m) c).arrAt_in 0 rfl _).trans (A_eq0 (V0 m) c 0))

theorem G1_eq (c : Dev nD) : G1 (V1 m) c
    = fun i => rowMin (N := 4096) (M := 4096) (m ((c : Thread nD τ).loc main_arg1)) (m ((c : Thread nD τ).loc main_arg0)) (i 0) (i 1) := by
  unfold G1
  rw [X1_eq m c, Y1_eq m c]

/-- The first result array: the nearest point of gt to each point of pred. -/
theorem W2_v0 (c : Dev nD) : (W2 m c (Proc.devRef .tc main_v0) : S8x4096.Idx → EReal)
    = fun i => rowMin (N := 4096) (M := 4096) (m ((c : Thread nD τ).loc main_arg0)) (m ((c : Thread nD τ).loc main_arg1)) (i 0) (i 1) :=
  (W2_of_ne m c main_v0 (by decide)).trans ((W1_arr m c 2).trans (final0 (V0 m) c))
/-- The second result array: the nearest point of pred to each point of gt. -/
theorem W2_v1 (c : Dev nD) : (W2 m c (Proc.devRef .tc main_v1) : S8x4096.Idx → EReal)
    = fun i => rowMin (N := 4096) (M := 4096) (m ((c : Thread nD τ).loc main_arg1)) (m ((c : Thread nD τ).loc main_arg0)) (i 0) (i 1) :=
  (W2_arr m c 2).trans ((final1 (V1 m) c).trans (G1_eq m c))

/-- The host's total sum of an [8, 4096] array, from zero, over its 32768 entries, then the quotient. -/
theorem mean_of (x : S8x4096.Idx → EReal) (i : S_.Idx) :
    Host.divf (F := Ideal) (Host.reduceAdd (F := Ideal) x (constant (F := Ideal) S_ .f32 0x00000000#32) reducesTo_S8x4096_S_d0_1 h_S_)
      (constant (F := Ideal) S_ .f32 0x47000000#32) i = meanAll fun b n => x (ix2 b n) := by
  show FloatOps.hostDivf (Host.reduceAdd (F := Ideal) x (constant (F := Ideal) S_ .f32 0x00000000#32) reducesTo_S8x4096_S_d0_1 h_S_ i)
    (FloatOps.ofBits (F := Ideal) .f32 0x47000000#32) = _
  have hs : Host.reduceAdd (F := Ideal) x (constant (F := Ideal) S_ .f32 0x00000000#32) reducesTo_S8x4096_S_d0_1 h_S_ i
      = Ideal.ofBits .f32 0x00000000#32 + ∑ j : S8x4096.Idx, x j := by
    simp only [Host.reduceAdd, Ideal.hostReduceAdd_def]
    exact Ideal.hostReduceAdd_total reducesTo_S8x4096_S_d0_1 (fun b => b.elim0) x _ i
  rw [hs, Ideal.ofBits_zero_f32, zero_add, sum_idx2, Ideal.hostDivf_def, Ideal.ofBits_def]
  rfl

theorem W3_v6 (c : Dev nD) : (W3 m c (Proc.devRef .tc main_v6) : S_.Idx → EReal)
    = fun _ => meanAll (fun b n => rowMin (N := 4096) (M := 4096) (m ((c : Thread nD τ).loc main_arg0)) (m ((c : Thread nD τ).loc main_arg1)) b n)
        + meanAll (fun b n => rowMin (N := 4096) (M := 4096) (m ((c : Thread nD τ).loc main_arg1)) (m ((c : Thread nD τ).loc main_arg0)) b n) := by
  have e : (W3 m c (Proc.devRef .tc main_v6) : S_.Idx → EReal)
      = addf (Host.divf (F := Ideal) (Host.reduceAdd (F := Ideal) (W2 m c (Proc.devRef .tc main_v0)) (constant (F := Ideal) S_ .f32 0x00000000#32) reducesTo_S8x4096_S_d0_1 h_S_) (constant (F := Ideal) S_ .f32 0x47000000#32))
          (Host.divf (F := Ideal) (Host.reduceAdd (F := Ideal) (W2 m c (Proc.devRef .tc main_v1)) (constant (F := Ideal) S_ .f32 0x00000000#32) reducesTo_S8x4096_S_d0_1 h_S_) (constant (F := Ideal) S_ .f32 0x47000000#32)) := by
    show StableHlo.after hostOps2 _ (Proc.devRef .tc main_v6) = _
    after_results
  rw [e, W2_v0, W2_v1]
  funext i
  rw [addf_apply, mean_of, mean_of]
  rfl

end Cert.KernelIdeal.HandValue

end
-- ==== Proof.RefValue.lean ====
/-
  The reference program's result, read as mathematics: the sum of the two means of nearest-neighbour
  squared distances, in both directions.

  The reference forms the full table of expanded squared distances between the points of its second
  argument (along axis 1) and of its first (along axis 2), takes the least entry along each of the two
  axes from +∞, and averages each of the two resulting tables as a mean of per-batch means.
-/
import proofs.«170836_j8899172238075_1_alg».proof.Proof.Gen.ReferenceIdeal.Read
import proofs.«170836_j8899172238075_1_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.RowMin

/-! ## Index bookkeeping: the composed index maps at explicit coordinates -/

theorem idx_v1 (b : Fin 8) (n : Fin 4096) (k : Fin 3) : idx_main_v1 (ix2 b n) k = ix3 b n k :=
  funext fun a => Fin.ext (by match a with | ⟨0, _⟩ => rfl | ⟨1, _⟩ => rfl | ⟨2, _⟩ => rfl)

theorem idx_v3 (b : Fin 8) (n : Fin 4096) (k : Fin 3) : idx_main_v3 (ix2 b n) k = ix3 b n k :=
  funext fun a => Fin.ext (by match a with | ⟨0, _⟩ => rfl | ⟨1, _⟩ => rfl | ⟨2, _⟩ => rfl)

theorem lidx_v4 (b : Fin 8) (i j : Fin 4096) (k : Fin 3) : lidx_main_v4 (ix3 b i j) k = ix3 b i k :=
  funext fun a => Fin.ext (by match a with | ⟨0, _⟩ => rfl | ⟨1, _⟩ => rfl | ⟨2, _⟩ => rfl)

theorem ridx_v4 (b : Fin 8) (i j : Fin 4096) (k : Fin 3) : ridx_main_v4 (ix3 b i j) k = ix3 b j k :=
  funext fun a => Fin.ext (by match a with | ⟨0, _⟩ => rfl | ⟨1, _⟩ => rfl | ⟨2, _⟩ => rfl)

theorem idx_v57 (b : Fin 8) (i j : Fin 4096) : idx_main_v5 (idx_main_v7 (ix3 b i j)) = ix2 b i :=
  funext fun a => Fin.ext (by match a with | ⟨0, _⟩ => rfl | ⟨1, _⟩ => rfl)

theorem idx_v68 (b : Fin 8) (i j : Fin 4096) : idx_main_v6 (idx_main_v8 (ix3 b i j)) = ix2 b j :=
  funext fun a => Fin.ext (by match a with | ⟨0, _⟩ => rfl | ⟨1, _⟩ => rfl)

/-! ## The table of squared distances -/

/-- The squared norm of point n of the second argument. -/
theorem v1_at (x1 : FVec Ideal S8x4096x3 .f32) (b : Fin 8) (n : Fin 4096) :
    val_main_v1 (F := Ideal) x1 (ix2 b n) = sq x1 b n := by
  rw [val_main_v1_apply]
  simp only [idx_v1, val_main_cst_apply, val_main_v0_apply, Ideal.ofBits_def, Ideal.ofBits_zero_f32, zero_add,
    Ideal.mulf_def]
  rfl

/-- The squared norm of point n of the first argument. -/
theorem v3_at (x0 : FVec Ideal S8x4096x3 .f32) (b : Fin 8) (n : Fin 4096) :
    val_main_v3 (F := Ideal) x0 (ix2 b n) = sq x0 b n := by
  rw [val_main_v3_apply]
  simp only [idx_v3, val_main_cst_0_apply, val_main_v2_apply, Ideal.ofBits_def, Ideal.ofBits_zero_f32, zero_add,
    Ideal.mulf_def]
  rfl

/-- The inner product of point i of the second argument with point j of the first. -/
theorem v4_at (x0 x1 : FVec Ideal S8x4096x3 .f32) (b : Fin 8) (i j : Fin 4096) :
    val_main_v4 (F := Ideal) x0 x1 (ix3 b i j) = dot x1 x0 b i j := by
  rw [val_main_v4_apply]
  simp only [lidx_v4, ridx_v4]
  rfl

/-- The table's entry (b, i, j) is the expanded squared distance between point i of the second argument
    and point j of the first. -/
theorem v12_at (x0 x1 : FVec Ideal S8x4096x3 .f32) (b : Fin 8) (i j : Fin 4096) :
    val_main_v12 (F := Ideal) x0 x1 (ix3 b i j) = dist x1 x0 b i j := by
  rw [val_main_v12_apply, val_main_v9_apply, val_main_v7_apply, val_main_v5_apply, val_main_v8_apply,
    val_main_v6_apply, val_main_v11_apply, val_main_v10_apply, val_main_cst_1_apply, idx_v57, idx_v68,
    v1_at, v3_at, v4_at]
  rfl

/-! ## The two minimum reductions -/

/-- The table's shape with axis 1 removed, and with axis 2 removed. -/
theorem red1 : S8x4096x4096.Reduces [1] S8x4096 := by decide
theorem red2 : S8x4096x4096.Reduces [2] S8x4096 := by decide

/-- Inserting coordinate k on axis 1 over the index (b, j). -/
theorem lift1 (b : Fin 8) (j : Fin 4096) (k : Fin 4096) : red1.lift (ix2 b j) k = ix3 b k j :=
  funext fun a => Fin.ext (by
    match a with
    | ⟨0, _⟩ => rfl
    | ⟨1, _⟩ => rfl
    | ⟨2, _⟩ => rfl)

/-- Inserting coordinate k on axis 2 over the index (b, i). -/
theorem lift2 (b : Fin 8) (i : Fin 4096) (k : Fin 4096) : red2.lift (ix2 b i) k = ix3 b i k :=
  funext fun a => Fin.ext (by
    match a with
    | ⟨0, _⟩ => rfl
    | ⟨1, _⟩ => rfl
    | ⟨2, _⟩ => rfl)

/-- The word of +∞ is the top of the extended reals. -/
theorem inf_word : Ideal.ofBits .f32 0x7F800000#32 = (⊤ : EReal) := by simp [Ideal.ofBits, Ideal.ieee]

/-- The least entry along axis 1: the nearest point of the second argument to point j of the first. -/
theorem v13_at (x0 x1 : FVec Ideal S8x4096x3 .f32) (b : Fin 8) (j : Fin 4096) :
    val_main_v13 (F := Ideal) x0 x1 (ix2 b j) = colMin x1 x0 b j := by
  unfold val_main_v13
  refine (Host.reduce_eq_fold_single _ _ _ reducesTo_S8x4096x4096_S8x4096_d1 red1 h_S_ (ix2 b j)).trans ?_
  have hf : (val_main_v12 (F := Ideal) x0 x1 ∘ red1.lift (ix2 b j)) = fun k : Fin 4096 => dist x1 x0 b k j :=
    funext fun k => (congrArg (val_main_v12 (F := Ideal) x0 x1) (lift1 b j k)).trans (v12_at x0 x1 b k j)
  rw [hf, val_main_cst_2_apply, Ideal.ofBits_def, inf_word]
  rfl

/-- The least entry along axis 2: the nearest point of the first argument to point i of the second. -/
theorem v19_at (x0 x1 : FVec Ideal S8x4096x3 .f32) (b : Fin 8) (i : Fin 4096) :
    val_main_v19 (F := Ideal) x0 x1 (ix2 b i) = rowMin x1 x0 b i := by
  unfold val_main_v19
  refine (Host.reduce_eq_fold_single _ _ _ reducesTo_S8x4096x4096_S8x4096_d2 red2 h_S_ (ix2 b i)).trans ?_
  have hf : (val_main_v12 (F := Ideal) x0 x1 ∘ red2.lift (ix2 b i)) = fun k : Fin 4096 => dist x1 x0 b i k :=
    funext fun k => (congrArg (val_main_v12 (F := Ideal) x0 x1) (lift2 b i k)).trans (v12_at x0 x1 b i k)
  rw [hf, val_main_cst_7_apply, Ideal.ofBits_def, inf_word]
  rfl

/-! ## The two means of per-batch means -/

theorem idx_v14 (b : Fin 8) (k : Fin 4096) : idx_main_v14 (ix1 b) k = ix2 b k :=
  funext fun a => Fin.ext (by match a with | ⟨0, _⟩ => rfl | ⟨1, _⟩ => rfl)

theorem idx_v20 (b : Fin 8) (k : Fin 4096) : idx_main_v20 (ix1 b) k = ix2 b k :=
  funext fun a => Fin.ext (by match a with | ⟨0, _⟩ => rfl | ⟨1, _⟩ => rfl)

/-- A sum over the rank-1 index set of eight batches is the sum over the batch coordinate. -/
theorem sum_idx1 (f : S8.Idx → EReal) : ∑ j : S8.Idx, f j = ∑ b : Fin 8, f (ix1 b) := by
  let e : Fin 8 ≃ S8.Idx := ⟨fun b => ix1 b, fun j => j 0, fun _ => rfl, fun j => (eq_ix1 j).symm⟩
  exact (Equiv.sum_comp e f).symm

/-- Batch b's mean of the nearest-neighbour distances along axis 1. -/
theorem v16_at (x0 x1 : FVec Ideal S8x4096x3 .f32) (b : Fin 8) :
    val_main_v16 (F := Ideal) x0 x1 (ix1 b)
      = Ideal.div (∑ n : Fin 4096, colMin x1 x0 b n) (Ideal.ofBits .f32 0x45800000#32) := by
  rw [val_main_v16_apply, val_main_v14_apply, val_main_v15_apply, val_main_cst_3_apply, val_main_cst_4_apply]
  simp only [idx_v14, v13_at, Ideal.ofBits_def, Ideal.ofBits_zero_f32, zero_add, Ideal.hostDivf_def]

/-- Batch b's mean of the nearest-neighbour distances along axis 2. -/
theorem v22_at (x0 x1 : FVec Ideal S8x4096x3 .f32) (b : Fin 8) :
    val_main_v22 (F := Ideal) x0 x1 (ix1 b)
      = Ideal.div (∑ n : Fin 4096, rowMin x1 x0 b n) (Ideal.ofBits .f32 0x45800000#32) := by
  rw [val_main_v22_apply, val_main_v20_apply, val_main_v21_apply, val_main_cst_8_apply, val_main_cst_9_apply]
  simp only [idx_v20, v19_at, Ideal.ofBits_def, Ideal.ofBits_zero_f32, zero_add, Ideal.hostDivf_def]

/-- The first loss term: the mean over the batches of the per-batch means along axis 1. -/
theorem v18_at (x0 x1 : FVec Ideal S8x4096x3 .f32) (i : S_.Idx) :
    val_main_v18 (F := Ideal) x0 x1 i = meanOfMeans (fun b j => colMin x1 x0 b j) := by
  rw [val_main_v18_apply, val_main_v17_apply, val_main_cst_5_apply, val_main_cst_6_apply, sum_idx1]
  simp only [v16_at, Ideal.ofBits_def, Ideal.ofBits_zero_f32, zero_add, Ideal.hostDivf_def]
  rfl

/-- The second loss term: the mean over the batches of the per-batch means along axis 2. -/
theorem v24_at (x0 x1 : FVec Ideal S8x4096x3 .f32) (i : S_.Idx) :
    val_main_v24 (F := Ideal) x0 x1 i = meanOfMeans (fun b j => rowMin x1 x0 b j) := by
  rw [val_main_v24_apply, val_main_v23_apply, val_main_cst_10_apply, val_main_cst_11_apply, sum_idx1]
  simp only [v22_at, Ideal.ofBits_def, Ideal.ofBits_zero_f32, zero_add, Ideal.hostDivf_def]
  rfl

/-! ## The result -/

/-- The reference's result, for arbitrary arrays pred (its first argument) and gt (its second): the mean of means
    of each point of pred's nearest point of gt, plus the mean of means of each point of gt's nearest point of
    pred, distances expanded from gt's side. -/
theorem ref_value (pred gt : FVec Ideal S8x4096x3 .f32) :
    val_main_v25 (F := Ideal) pred gt
      = fun _ => meanOfMeans (fun b j => colMin gt pred b j) + meanOfMeans (fun b i => rowMin gt pred b i) := by
  funext i
  rw [val_main_v25_apply, v18_at, v24_at, Ideal.addf_def]

/-! ## The same, on the run -/

open Idealize.ShloMosaic.TcCoe Idealize.SL.Sem Idealize.ShloMosaic.StableHlo in
/-- Every run of the reference ends with its result buffer at that sum of means of the launch contents of its two
    arguments, which it leaves unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
        = (fun _ =>
            meanOfMeans (fun b j => colMin (m ((c.tc : Thread nD τ).loc main_arg1)) (m ((c.tc : Thread nD τ).loc main_arg0)) b j)
            + meanOfMeans (fun b i => rowMin (m ((c.tc : Thread nD τ).loc main_arg1)) (m ((c.tc : Thread nD τ).loc main_arg0)) b i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((val_main_v25_eq _ _).trans (ref_value _ _)), (h c).2⟩)
    (Cert.ReferenceIdeal.Value.run (F := Ideal) m ρ)

end Cert.ReferenceIdeal.RefValue

end
-- ==== Proof.lean ====
/-
  The certificate of a chamfer-distance kernel against its jnp reference.

  For two clouds pred, gt of 4096 points in three dimensions, eight batches, the loss is the mean over the points of
  pred of the squared distance to the nearest point of gt, plus the same with the roles swapped. The kernel computes
  each direction by one pallas call on an 8 × 8 grid of 512 × 512 tiles of the distance matrix
  |x_n|² + |y_m|² − 2·⟨x_n, y_m⟩, keeping a running row minimum along a row of tiles, and averages each result array
  by one sum over its 32768 entries. The reference builds the whole 4096 × 4096 matrix once (from gt's side), takes
  its column minima and its row minima, and averages each by per-batch means.

  At the ideal values the two agree with no use of finiteness: sums and products commute term by term (so the
  matrix from pred's side is the transpose of the matrix from gt's side), a minimum over 4096 columns is the
  minimum of the eight minima over 512 (in any linear order with a top), and a quotient by a positive real
  distributes over any sum of extended reals (so the mean of eight means over 4096 is the mean over 32768).

  The frames: each program's run is followed through its two pallas calls and its host operations; every point of
  a grid stores the whole output block (at the first point of a row of tiles the tile's minima, at the later ones
  the minimum with what the block held), and no step writes an argument array.
-/
import proofs.«170836_j8899172238075_1_alg».proof.Defs
import proofs.«170836_j8899172238075_1_alg».proof.Proof.Gen.Kernel
import proofs.«170836_j8899172238075_1_alg».proof.Proof.Gen.KernelIdeal
import proofs.«170836_j8899172238075_1_alg».proof.Proof.Gen.ReferenceIdeal
import proofs.«170836_j8899172238075_1_alg».proof.Proof.Gen.Pre_finite_inputs
import proofs.«170836_j8899172238075_1_alg».proof.Proof.BitsRun
import proofs.«170836_j8899172238075_1_alg».proof.Proof.IdealResult
import proofs.«170836_j8899172238075_1_alg».proof.Proof.RefValue
import proofs.«170836_j8899172238075_1_alg».proof.Proof.MeanLaw

noncomputable section

namespace Cert.Proof

open Idealize.ShloMosaic Idealize.ShloMosaic.TcCoe Idealize.SL.Sem Cert.RowMin

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's two means of means are the kernel's two means: the column minima of the matrix from gt's side
    are the row minima of the matrix from pred's side, and the two averagings agree. -/
theorem loss_eq (pred gt : Cloud 4096) :
    meanOfMeans (fun b j => colMin gt pred b j) + meanOfMeans (fun b i => rowMin gt pred b i)
      = meanAll (fun b n => rowMin pred gt b n) + meanAll (fun b n => rowMin gt pred b n) := by
  rw [meanOfMeans_eq_meanAll, meanOfMeans_eq_meanAll]
  simp only [← rowMin_swap]

theorem algebraic : Cert.algebraic_KernelIdeal_ReferenceIdeal := by
  intro m ρ m' ρ' _ hagree
  refine ⟨fun c => fun _ =>
    meanAll (fun b n => rowMin (N := 4096) (M := 4096) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) b n)
    + meanAll (fun b n => rowMin (N := 4096) (M := 4096) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) b n), ?_, ?_⟩
  · exact (θ_run Cert.KernelIdeal.defs _ _).mono (fun _ h c =>
      ⟨(h c _ (Cert.KernelIdeal.Hand.mem_uc Cert.KernelIdeal.main_v6 (by decide))).trans (Cert.KernelIdeal.HandValue.W3_v6 m c),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c)⟩)
      (Cert.KernelIdeal.Hand.run_all m ρ)
  · refine (θ_run Cert.ReferenceIdeal.defs _ _).mono (fun _ h c => ⟨(h c).1.trans ?_, (h c).2⟩)
      (Cert.ReferenceIdeal.RefValue.run_value m' ρ')
    rw [(hagree c).1, (hagree c).2]
    funext _
    exact loss_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
